-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x64 : Shape := ⟨2, ![512, 64]⟩
abbrev S64x512 : Shape := ⟨2, ![64, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S100000x512 .f32) (main_arg1 : IVec S1600000 32) (main_arg2 : IVec S1600000 32) (main_arg3 : FVec F S512x64 .f32) (main_arg4 : FVec F S64x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64x512 .f32 := Host.absf main_arg4
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S100000x512 : Shape := ⟨2, ![100000, 512]⟩
abbrev S1600000 : Shape := ⟨1, ![1600000]⟩
abbrev S512x64 : Shape := ⟨2, ![512, 64]⟩
abbrev S64x512 : Shape := ⟨2, ![64, 512]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x512 : Shape := ⟨2, ![5000, 512]⟩
abbrev S5000x64 : Shape := ⟨2, ![5000, 64]⟩
abbrev S1600000x64 : Shape := ⟨2, ![1600000, 64]⟩
abbrev S10000x64 : Shape := ⟨2, ![10000, 64]⟩
abbrev S10000x1 : Shape := ⟨2, ![10000, 1]⟩
abbrev S5000x1 : Shape := ⟨2, ![5000, 1]⟩

abbrev nBuf : Space → Nat
  | .hbm => 89
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x64, .f32⟩
  | .hbm, ⟨4, _⟩ => ⟨S64x512, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000, .f32⟩
  | .hbm, ⟨55, _⟩ => ⟨S1600000x1, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000, .f32⟩
  | .hbm, ⟨81, _⟩ => ⟨S1600000x1, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S100000x64, .f32⟩
  | .hbm, ⟨86, _⟩ => ⟨S1600000x1, .i32⟩
  | .hbm, ⟨87, _⟩ => ⟨S100000x64, .f32⟩
  | .hbm, ⟨88, _⟩ => ⟨S100000x512, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S64x512, .f32⟩
  | .local _ .vmem, ⟨16, _⟩ => ⟨S5000x512, .f32⟩
  | .local _ .vmem, ⟨17, _⟩ => ⟨S5000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_8 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_9 : Ref sig .tc := ⟨.hbm, 46, rfl⟩
abbrev main_v26 : Ref sig .tc := ⟨.hbm, 47, rfl⟩
abbrev main_v27 : Ref sig .tc := ⟨.hbm, 48, rfl⟩
abbrev main_c_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_12 : Ref sig .tc := ⟨.hbm, 63, rfl⟩
abbrev main_v40 : Ref sig .tc := ⟨.hbm, 64, rfl⟩
abbrev main_v41 : Ref sig .tc := ⟨.hbm, 65, rfl⟩
abbrev main_c_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_14 : Ref sig .tc := ⟨.hbm, 72, rfl⟩
abbrev main_v47 : Ref sig .tc := ⟨.hbm, 73, rfl⟩
abbrev main_v48 : Ref sig .tc := ⟨.hbm, 74, rfl⟩
abbrev main_c_15 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x512_S64x512_0_0 : ∀ a, (![0, 0] : Fin 2 → Nat) a + S64x512.size a ≤ S64x512.size a
  h_S64x512 : 0 < S64x512.numel
  scatter_S100000_S1600000x1_S1600000_n_0_0_1_wf : ScatterDims.WF S100000 S1600000x1 S1600000 [] [0] [0] 1
  dot_S5000x512_S512x64_S5000x64_1_0_0_1_n_n_wf : DotDims.WF S5000x512 S512x64 S5000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S5000x64_S64x512_S5000x512_1_0_0_1_n_n_wf : DotDims.WF S5000x64 S64x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x512.size a ≤ S64x512.size a
  hwx2_2 : ∀ i : grid2.Coords, EltTy.bits .f32 = 32 ∨ (Rect.block (s := S64x512) S64x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x512.size a ≤ S100000x512.size a
  hwx2_3 : ∀ i : grid2.Coords, EltTy.bits .f32 = 32 ∨ (Rect.block (s := S100000x512) S5000x512.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x64 : Shape := ⟨2, ![512, 64]⟩
abbrev S64x512 : Shape := ⟨2, ![64, 512]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S512x64, .f32⟩
  | .hbm, ⟨4, _⟩ => ⟨S64x512, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000, .f32⟩
  | .hbm, ⟨85, _⟩ => ⟨S1600000x1, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_8 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_c_10 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_cst : Ref sig .tc := ⟨.hbm, 64, rfl⟩
abbrev main_call2_v0 : Ref sig .tc := ⟨.hbm, 65, rfl⟩
abbrev main_v41 : Ref sig .tc := ⟨.hbm, 66, rfl⟩
abbrev main_c_12 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_c_15 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1600000x1_S1600000_n_0_0_1_wf : ScatterDims.WF S100000 S1600000x1 S1600000 [] [0] [0] 1
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S100000x64_S64x512_S100000x512_1_0_0_1_n_n_wf : DotDims.WF S100000x64 S64x512 S100000x512 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x512_S100000x512_1_0_0_1_n_n : DotDims S100000x64 S64x512 S100000x512 where
  lhsContracting := [1]
  rhsContracting := [0]
  lhsNonContracting := [0]
  rhsNonContracting := [1]
  lhsBatch := []
  rhsBatch := []
  wf := dot_S100000x64_S64x512_S100000x512_1_0_0_1_n_n_wf

class Facts : Prop extends Facts₀ where

variable [Facts]
-- ==== Proof.KernelRun.lean ====
/-
  The idealized kernel's run, read to the end.  The program is ten segments — five stretches of host operations, the
  first matmul's region, a stretch, the normalise-and-rectify region, a stretch, the normalise-and-matmul region — and
  the buffer contents at every boundary are a fold from the launch memory: a stretch applies its operations, a region
  replaces its arrays by what its write-backs leave.  Every weakly fair execution terminates, without a fault, with
  EVERY unscoped buffer at the last boundary's contents; the result buffer and the five arguments are read off that
  one statement.
-/
import proofs.«128176_j25907242729573_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel's @main terminates, nothing faulting, with every unscoped
    buffer of every core at the last boundary's contents `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run, read at the result and at the arguments: the result buffer at the last boundary's contents, the
    arguments as launched. -/
theorem run_result : θ_run defs (onTc (τ := τ) (main (F := F))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨h c _ (mem_uc main_v60 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)
    (run_all m ρ)

end Cert.KernelIdeal.Hand

end
-- ==== Proof.Stages.lean ====
/-
  The host side of both programs, stage by stage.  A graph convolution with symmetric degree normalisation is, on the
  host, four things: the degree of every node under an index array, raised to the power −1/2 after empty nodes are
  given degree one (`degNorm`); the index array made non-negative and turned into a column (`idxCol`); the
  aggregation of node features along the edges — gather the source rows, weigh each by its source's norm, and
  scatter-add into the destination rows (`aggregate`); and the destination norm as a column spread over the feature
  axis (`ncol`, `scaleRows`).  The two dense layers (`layer1`, `layer2`) and the rectifier (`relu0`) complete the
  network; `result` is their composition, a function of the five argument arrays only.  Every definition is the
  reference program's own operation, with its own dimension records, so that the reference's composed term is
  `result` of its arguments by unfolding.
-/
import proofs.«128176_j25907242729573_2_alg».proof.ReferenceIdeal

noncomputable section

namespace Cert.Stages

open Idealize.ShloMosaic Cert.ReferenceIdeal

variable {F : FTy → Type} [FloatOps F] [Cert.ReferenceIdeal.Facts]
open Cert.ReferenceIdeal.Facts₀ Cert.ReferenceIdeal.Facts

/-- The number of edges at each node under the index array `a`: ones scatter-added into zeros. -/
def deg (a : (⟨S1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 a) (broadcastInDim S1600000 ![] bcast_S_S1600000 (constant S_ .f32 0x3F800000#32))

/-- The degree norm: `d ^ (−1/2)`, where `d` is the degree, or one at a node without edges. -/
def degNorm (a : (⟨S1600000, .i32⟩ : BufTy).Contents (Elt F)) : (⟨S100000, .f32⟩ : BufTy).Contents (Elt F) :=
  Host.powf (select (cmpf (F := F) .ogt (deg a) (broadcastInDim S100000 ![] bcast_S_S100000 (constant S_ .f32 0x00000000#32))) (deg a) (broadcastInDim S100000 ![] bcast_S_S100000 (id (constant S_ .f32 0x3F800000#32)))) (broadcastInDim S100000 ![] bcast_S_S100000 (constant S_ .f32 0xBF000000#32))

/-- The index array with a negative entry counted from the end, as a column. -/
def idxCol (a : (⟨S1600000, .i32⟩ : BufTy).Contents (Elt F)) : (⟨S1600000x1, .i32⟩ : BufTy).Contents (Elt F) :=
  broadcastInDim S1600000x1 ![0] bcast_S1600000_S1600000x1_0 (select (cmpi .slt a (broadcastInDim S1600000 ![] bcast_S_S1600000 (constantI S_ 32 0#32))) (addi a (broadcastInDim S1600000 ![] bcast_S_S1600000 (constantI S_ 32 100000#32))) a)

/-- Aggregation along the edges: row `src e` of `x` times the source norm of `src e`, added into row `dst e`. -/
def aggregate (x : (⟨S100000x64, .f32⟩ : BufTy).Contents (Elt F)) (src dst : (⟨S1600000, .i32⟩ : BufTy).Contents (Elt F))
    (nsrc : (⟨S100000, .f32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (mulf (Host.gather gather_S100000x64_S1600000x1_S1600000x64_1_0_n_n_0_1_164 x (idxCol src)) (broadcastInDim S1600000x64 ![0, 1] bcast_S1600000x1_S1600000x64_0_1 (broadcastInDim S1600000x1 ![0] bcast_S1600000_S1600000x1_0 (Host.gather gather_S100000_S1600000x1_S1600000_n_0_n_n_0_1_1 nsrc (idxCol src)))))

/-- A per-node vector as a column. -/
def ncol (nd : (⟨S100000, .f32⟩ : BufTy).Contents (Elt F)) : (⟨S100000x1, .f32⟩ : BufTy).Contents (Elt F) :=
  broadcastInDim S100000x1 ![0] bcast_S100000_S100000x1_0 nd

/-- Every row of `x` times that row's entry of the column. -/
def scaleRows (x : (⟨S100000x64, .f32⟩ : BufTy).Contents (Elt F)) (col : (⟨S100000x1, .f32⟩ : BufTy).Contents (Elt F)) :
    (⟨S100000x64, .f32⟩ : BufTy).Contents (Elt F) :=
  mulf x (broadcastInDim S100000x64 ![0, 1] bcast_S100000x1_S100000x64_0_1 col)

/-- The rectifier: the maximum with zero. -/
def relu0 (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The first dense layer: features times the 512 × 64 weight. -/
def layer1 (a0 : (⟨S100000x512, .f32⟩ : BufTy).Contents (Elt F)) (a3 : (⟨S512x64, .f32⟩ : BufTy).Contents (Elt F)) :
    (⟨S100000x64, .f32⟩ : BufTy).Contents (Elt F) :=
  Host.dotGeneral dot_S100000x512_S512x64_S100000x64_1_0_0_1_n_n none a0 a3

/-- The second dense layer: hidden features times the 64 × 512 weight. -/
def layer2 (x : (⟨S100000x64, .f32⟩ : BufTy).Contents (Elt F)) (a4 : (⟨S64x512, .f32⟩ : BufTy).Contents (Elt F)) :
    (⟨S100000x512, .f32⟩ : BufTy).Contents (Elt F) :=
  Host.dotGeneral dot_S100000x64_S64x512_S100000x512_1_0_0_1_n_n none x a4

/-- The hidden features: the first layer aggregated, scaled by the destination norm and rectified. -/
def hidden (a0 : (⟨S100000x512, .f32⟩ : BufTy).Contents (Elt F)) (a1 a2 : (⟨S1600000, .i32⟩ : BufTy).Contents (Elt F))
    (a3 : (⟨S512x64, .f32⟩ : BufTy).Contents (Elt F)) : (⟨S100000x64, .f32⟩ : BufTy).Contents (Elt F) :=
  relu0 (scaleRows (aggregate (layer1 a0 a3) a1 a2 (degNorm a1)) (ncol (degNorm a2)))

/-- The network's output as a function of its five arguments. -/
def result (a0 : (⟨S100000x512, .f32⟩ : BufTy).Contents (Elt F)) (a1 a2 : (⟨S1600000, .i32⟩ : BufTy).Contents (Elt F))
    (a3 : (⟨S512x64, .f32⟩ : BufTy).Contents (Elt F)) (a4 : (⟨S64x512, .f32⟩ : BufTy).Contents (Elt F)) :
    (⟨S100000x512, .f32⟩ : BufTy).Contents (Elt F) :=
  layer2 (scaleRows (aggregate (hidden a0 a1 a2 a3) a1 a2 (degNorm a1)) (ncol (degNorm a2))) a4

end Cert.Stages

end
-- ==== Proof.FoldHost.lean ====
/-
  The host stretches of the idealized kernel, read at the buffers the regions and the result depend on.  The first five
  stretches compute, from the launch memory, the two degree norms (the source norm as a vector, the destination norm as
  a column) and leave the arguments alone; the stretch between the first and the second region aggregates the first
  layer along the edges; the stretch between the second and the third region aggregates the hidden features the same
  way.  A buffer a stretch does not write keeps its contents.  Each statement is the stage function of the contents the
  stretch is entered with — the same operations, with the same dimension numbers, as the reference's.
-/
import proofs.«128176_j25907242729573_2_alg».proof.Proof.Gen.KernelIdeal.Frame
import proofs.«128176_j25907242729573_2_alg».proof.Proof.Gen.ReferenceIdeal
import proofs.«128176_j25907242729573_2_alg».proof.Proof.Stages

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## Up to the first region: the degree norms from the launch memory -/

/-- The source norm: the degree norm of the source indices. -/
theorem W5_v11 : W5 m ρ c (Proc.devRef .tc main_v11) = Cert.Stages.degNorm (m ((c : Thread nD τ).loc main_arg1)) := by
  show after hostOps0_4 (after hostOps0_3 (after hostOps0_2 (after hostOps0_1 (after hostOps0 (W0 m ρ c))))) (Proc.devRef .tc main_v11) = _
  after_results_simp <;> rfl

/-- The destination norm, as a column. -/
theorem W5_v17 : W5 m ρ c (Proc.devRef .tc main_v17) = Cert.Stages.ncol (Cert.Stages.degNorm (m ((c : Thread nD τ).loc main_arg2))) := by
  show after hostOps0_4 (after hostOps0_3 (after hostOps0_2 (after hostOps0_1 (after hostOps0 (W0 m ρ c))))) (Proc.devRef .tc main_v17) = _
  after_results_simp <;> rfl

theorem W5_arg0 : W5 m ρ c (Proc.devRef .tc main_arg0) = m ((c : Thread nD τ).loc main_arg0) := by
  show after hostOps0_4 (after hostOps0_3 (after hostOps0_2 (after hostOps0_1 (after hostOps0 (W0 m ρ c))))) (Proc.devRef .tc main_arg0) = _
  after_results_simp <;> rfl

theorem W5_arg1 : W5 m ρ c (Proc.devRef .tc main_arg1) = m ((c : Thread nD τ).loc main_arg1) := by
  show after hostOps0_4 (after hostOps0_3 (after hostOps0_2 (after hostOps0_1 (after hostOps0 (W0 m ρ c))))) (Proc.devRef .tc main_arg1) = _
  after_results_simp <;> rfl

theorem W5_arg2 : W5 m ρ c (Proc.devRef .tc main_arg2) = m ((c : Thread nD τ).loc main_arg2) := by
  show after hostOps0_4 (after hostOps0_3 (after hostOps0_2 (after hostOps0_1 (after hostOps0 (W0 m ρ c))))) (Proc.devRef .tc main_arg2) = _
  after_results_simp <;> rfl

theorem W5_arg3 : W5 m ρ c (Proc.devRef .tc main_arg3) = m ((c : Thread nD τ).loc main_arg3) := by
  show after hostOps0_4 (after hostOps0_3 (after hostOps0_2 (after hostOps0_1 (after hostOps0 (W0 m ρ c))))) (Proc.devRef .tc main_arg3) = _
  after_results_simp <;> rfl

theorem W5_arg4 : W5 m ρ c (Proc.devRef .tc main_arg4) = m ((c : Thread nD τ).loc main_arg4) := by
  show after hostOps0_4 (after hostOps0_3 (after hostOps0_2 (after hostOps0_1 (after hostOps0 (W0 m ρ c))))) (Proc.devRef .tc main_arg4) = _
  after_results_simp <;> rfl

/-! ## Between the first and the second region: the first layer aggregated along the edges -/

theorem W7_v38 : W7 m ρ c (Proc.devRef .tc main_v38)
    = Cert.Stages.aggregate (W6 m ρ c (Proc.devRef .tc main_v18)) (W6 m ρ c (Proc.devRef .tc main_arg1))
        (W6 m ρ c (Proc.devRef .tc main_arg2)) (W6 m ρ c (Proc.devRef .tc main_v11)) := by
  show after hostOps1 (W6 m ρ c) (Proc.devRef .tc main_v38) = _
  after_results_simp <;> rfl

theorem W7_v17 : W7 m ρ c (Proc.devRef .tc main_v17) = W6 m ρ c (Proc.devRef .tc main_v17) := by
  show after hostOps1 (W6 m ρ c) (Proc.devRef .tc main_v17) = _
  after_results_simp <;> rfl

theorem W7_v11 : W7 m ρ c (Proc.devRef .tc main_v11) = W6 m ρ c (Proc.devRef .tc main_v11) := by
  show after hostOps1 (W6 m ρ c) (Proc.devRef .tc main_v11) = _
  after_results_simp <;> rfl

theorem W7_arg1 : W7 m ρ c (Proc.devRef .tc main_arg1) = W6 m ρ c (Proc.devRef .tc main_arg1) := by
  show after hostOps1 (W6 m ρ c) (Proc.devRef .tc main_arg1) = _
  after_results_simp <;> rfl

theorem W7_arg2 : W7 m ρ c (Proc.devRef .tc main_arg2) = W6 m ρ c (Proc.devRef .tc main_arg2) := by
  show after hostOps1 (W6 m ρ c) (Proc.devRef .tc main_arg2) = _
  after_results_simp <;> rfl

theorem W7_arg4 : W7 m ρ c (Proc.devRef .tc main_arg4) = W6 m ρ c (Proc.devRef .tc main_arg4) := by
  show after hostOps1 (W6 m ρ c) (Proc.devRef .tc main_arg4) = _
  after_results_simp <;> rfl

/-! ## Between the second and the third region: the hidden features aggregated along the edges -/

theorem W9_v59 : W9 m ρ c (Proc.devRef .tc main_v59)
    = Cert.Stages.aggregate (W8 m ρ c (Proc.devRef .tc main_v39)) (W8 m ρ c (Proc.devRef .tc main_arg1))
        (W8 m ρ c (Proc.devRef .tc main_arg2)) (W8 m ρ c (Proc.devRef .tc main_v11)) := by
  show after hostOps2 (W8 m ρ c) (Proc.devRef .tc main_v59) = _
  after_results_simp <;> rfl

theorem W9_v17 : W9 m ρ c (Proc.devRef .tc main_v17) = W8 m ρ c (Proc.devRef .tc main_v17) := by
  show after hostOps2 (W8 m ρ c) (Proc.devRef .tc main_v17) = _
  after_results_simp <;> rfl

theorem W9_arg4 : W9 m ρ c (Proc.devRef .tc main_arg4) = W8 m ρ c (Proc.devRef .tc main_arg4) := by
  show after hostOps2 (W8 m ρ c) (Proc.devRef .tc main_arg4) = _
  after_results_simp <;> rfl

end Cert.KernelIdeal.Fold

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Payloads.lean ====
/-
  What each kernel body stores, read at one entry of its block, at the ideal instance.  A change of float format is
  the identity there, so the first body's entry (p, q) is the plain sum over k of left(p, k) · right(k, q); the
  second's is the maximum of agg(p, q) · norm(p, 0) and zero; the third's is the sum over k of
  (agg(p, k) · norm(p, 0)) · weight(k, q).
-/
import proofs.«128176_j25907242729573_2_alg».proof.Proof.Gen.KernelIdeal.Skeleton
import proofs.«128176_j25907242729573_2_alg».proof.Proof.LibPlainDot
import proofs.«128176_j25907242729573_2_alg».proof.Proof.LibUnitAxes
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen

/-! ## The two matmuls' dimension numbers: the uncontracted coordinates pass through -/

theorem dotA_lhs0 (j : S5000x64.Idx) (q : dot_S5000x512_S512x64_S5000x64_1_0_0_1_n_n.contr.Idx) :
    (dot_S5000x512_S512x64_S5000x64_1_0_0_1_n_n.lhsIdx j q 0).val = (j 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl

theorem dotA_rhs1 (j : S5000x64.Idx) (q : dot_S5000x512_S512x64_S5000x64_1_0_0_1_n_n.contr.Idx) :
    (dot_S5000x512_S512x64_S5000x64_1_0_0_1_n_n.rhsIdx j q 1).val = (j 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

theorem dotB_lhs0 (j : S5000x512.Idx) (q : dot_S5000x64_S64x512_S5000x512_1_0_0_1_n_n.contr.Idx) :
    (dot_S5000x64_S64x512_S5000x512_1_0_0_1_n_n.lhsIdx j q 0).val = (j 0).val := by
  unfold DotDims.lhsIdx
  rw [dif_neg (show ¬(0 : Fin S5000x64.rank) ∈ dot_S5000x64_S64x512_S5000x512_1_0_0_1_n_n.lhsBatch by decide), dif_pos (show (0 : Fin S5000x64.rank) ∈ dot_S5000x64_S64x512_S5000x512_1_0_0_1_n_n.lhsNonContracting by decide)]
  rfl

theorem dotB_rhs1 (j : S5000x512.Idx) (q : dot_S5000x64_S64x512_S5000x512_1_0_0_1_n_n.contr.Idx) :
    (dot_S5000x64_S64x512_S5000x512_1_0_0_1_n_n.rhsIdx j q 1).val = (j 1).val := by
  unfold DotDims.rhsIdx
  rw [dif_neg (show ¬(1 : Fin S64x512.rank) ∈ dot_S5000x64_S64x512_S5000x512_1_0_0_1_n_n.rhsBatch by decide), dif_pos (show (1 : Fin S64x512.rank) ∈ dot_S5000x64_S64x512_S5000x512_1_0_0_1_n_n.rhsNonContracting by decide)]
  rfl

/-! ## The payloads at an entry -/

/-- The first matmul's block: entry (p, q) is the sum over k of left(p, k) · right(k, q). -/
theorem pay0_apply (x0 : Vec Ideal S5000x512 .f32) (x1 : Vec Ideal S512x64 .f32) (p : Fin 5000) (q : Fin 64) :
    k0_pay1 (F := Ideal) x0 x1 (ix2 p q) = ∑ k : Fin 512, x0 (ix2 p k) * x1 (ix2 k q) := by
  unfold k0_pay1
  exact Cert.LibPlainDot.matmul_zero_apply dot_S5000x512_S512x64_S5000x64_1_0_0_1_n_n rfl rfl rfl rfl dotA_lhs0 dotA_rhs1 none
    (truncf .bf16 x0 bitsLt_bf16_f32) (truncf .bf16 x1 bitsLt_bf16_f32) p q

/-- The normalise-and-rectify block: entry (p, q) is the maximum of agg(p, q) · norm(p, 0) and zero. -/
theorem pay1_apply (x0 : Vec Ideal S10000x64 .f32) (x1 : Vec Ideal S10000x1 .f32) (p : Fin 10000) (q : Fin 64) :
    k1_pay1 (F := Ideal) x0 x1 (ix2 p q) = max (x0 (ix2 p q) * x1 (ix2 p (0 : Fin 1))) (Ideal.ofBits .f32 0x00000000#32) := by
  unfold k1_pay1
  show max ((shapeCast S10000x64 x0 shapeCasts_S10000x64_S10000x64) (ix2 p q)
      * (broadcastTo S10000x64 (shapeCast S10000x1 x1 shapeCasts_S10000x1_S10000x1) broadcasts_S10000x1_S10000x64) (ix2 p q))
    (Ideal.ofBits .f32 0x00000000#32) = _
  rw [shapeCast_self, shapeCast_self, Cert.LibUnitAxes.broadcastTo_a1_ab_apply]

/-- The normalise-and-matmul block: entry (p, q) is the sum over k of (agg(p, k) · norm(p, 0)) · weight(k, q). -/
theorem pay2_apply (x0 : Vec Ideal S5000x64 .f32) (x1 : Vec Ideal S5000x1 .f32) (x2 : Vec Ideal S64x512 .f32) (p : Fin 5000) (q : Fin 512) :
    k2_pay1 (F := Ideal) x0 x1 x2 (ix2 p q) = ∑ k : Fin 64, (x0 (ix2 p k) * x1 (ix2 p (0 : Fin 1))) * x2 (ix2 k q) := by
  unfold k2_pay1
  refine (Cert.LibPlainDot.matmul_zero_apply dot_S5000x64_S64x512_S5000x512_1_0_0_1_n_n rfl rfl rfl rfl dotB_lhs0 dotB_rhs1 none
    (truncf .bf16 (mulf (shapeCast S5000x64 x0 shapeCasts_S5000x64_S5000x64) (broadcastTo S5000x64 (shapeCast S5000x1 x1 shapeCasts_S5000x1_S5000x1) broadcasts_S5000x1_S5000x64)) bitsLt_bf16_f32)
    (truncf .bf16 x2 bitsLt_bf16_f32) p q).trans ?_
  refine Finset.sum_congr rfl fun k _ => ?_
  show ((shapeCast S5000x64 x0 shapeCasts_S5000x64_S5000x64) (ix2 p k)
      * (broadcastTo S5000x64 (shapeCast S5000x1 x1 shapeCasts_S5000x1_S5000x1) broadcasts_S5000x1_S5000x64) (ix2 p k)) * x2 (ix2 k q) = _
  rw [shapeCast_self, shapeCast_self, Cert.LibUnitAxes.broadcastTo_a1_ab_apply]

end Cert.KernelIdeal.Pay

end
-- ==== Proof.StagesAt.lean ====
/-
  The dense stages read at one entry, at the ideal instance: the first layer at (r, q) is the plain sum over k of
  features(r, k) · weight(k, q); scaling the rows by a column multiplies entry (r, q) by the column's entry (r, 0);
  the rectifier takes the maximum with zero; so the hidden layer's last two steps at (r, q) are
  max (agg(r, q) · norm(r, 0), 0) and the second layer after a row scaling is the sum over k of
  (agg(r, k) · norm(r, 0)) · weight(k, q).
-/
import proofs.«128176_j25907242729573_2_alg».proof.Proof.Stages
import proofs.«128176_j25907242729573_2_alg».proof.Proof.Gen.ReferenceIdeal
import proofs.«128176_j25907242729573_2_alg».proof.Proof.LibPlainDot
import proofs.«128176_j25907242729573_2_alg».proof.Proof.LibUnitAxes
import Idealize.ShloMosaic.Lib.ValueIdx
import Idealize.ShloMosaic.Lib.Pipeline.Value

noncomputable section

namespace Cert.Stages

open Idealize.ShloMosaic Idealize.ShloMosaic.ValueIdx Cert.ReferenceIdeal

open Cert.ReferenceIdeal.Facts₀ Cert.ReferenceIdeal.Facts

/-! ## The two host products' dimension numbers: the uncontracted coordinates pass through -/

theorem dot1_lhs0 (j : S100000x64.Idx) (q : dot_S100000x512_S512x64_S100000x64_1_0_0_1_n_n.contr.Idx) :
    (dot_S100000x512_S512x64_S100000x64_1_0_0_1_n_n.lhsIdx j q 0).val = (j 0).val := by
  unfold DotDims.lhsIdx
  rw [dif_neg (show ¬(0 : Fin S100000x512.rank) ∈ dot_S100000x512_S512x64_S100000x64_1_0_0_1_n_n.lhsBatch by decide), dif_pos (show (0 : Fin S100000x512.rank) ∈ dot_S100000x512_S512x64_S100000x64_1_0_0_1_n_n.lhsNonContracting by decide)]
  rfl

theorem dot1_rhs1 (j : S100000x64.Idx) (q : dot_S100000x512_S512x64_S100000x64_1_0_0_1_n_n.contr.Idx) :
    (dot_S100000x512_S512x64_S100000x64_1_0_0_1_n_n.rhsIdx j q 1).val = (j 1).val := by
  unfold DotDims.rhsIdx
  rw [dif_neg (show ¬(1 : Fin S512x64.rank) ∈ dot_S100000x512_S512x64_S100000x64_1_0_0_1_n_n.rhsBatch by decide), dif_pos (show (1 : Fin S512x64.rank) ∈ dot_S100000x512_S512x64_S100000x64_1_0_0_1_n_n.rhsNonContracting by decide)]
  rfl

theorem dot2_lhs0 (j : S100000x512.Idx) (q : dot_S100000x64_S64x512_S100000x512_1_0_0_1_n_n.contr.Idx) :
    (dot_S100000x64_S64x512_S100000x512_1_0_0_1_n_n.lhsIdx j q 0).val = (j 0).val := by
  unfold DotDims.lhsIdx
  rw [dif_neg (show ¬(0 : Fin S100000x64.rank) ∈ dot_S100000x64_S64x512_S100000x512_1_0_0_1_n_n.lhsBatch by decide), dif_pos (show (0 : Fin S100000x64.rank) ∈ dot_S100000x64_S64x512_S100000x512_1_0_0_1_n_n.lhsNonContracting by decide)]
  rfl

theorem dot2_rhs1 (j : S100000x512.Idx) (q : dot_S100000x64_S64x512_S100000x512_1_0_0_1_n_n.contr.Idx) :
    (dot_S100000x64_S64x512_S100000x512_1_0_0_1_n_n.rhsIdx j q 1).val = (j 1).val := by
  unfold DotDims.rhsIdx
  rw [dif_neg (show ¬(1 : Fin S64x512.rank) ∈ dot_S100000x64_S64x512_S100000x512_1_0_0_1_n_n.rhsBatch by decide), dif_pos (show (1 : Fin S64x512.rank) ∈ dot_S100000x64_S64x512_S100000x512_1_0_0_1_n_n.rhsNonContracting by decide)]
  rfl

/-! ## The stages at an entry -/

/-- The first layer at (r, q): the sum over k of features(r, k) · weight(k, q). -/
theorem layer1_apply (a0 : (⟨S100000x512, .f32⟩ : BufTy).Contents (Elt Ideal)) (a3 : (⟨S512x64, .f32⟩ : BufTy).Contents (Elt Ideal))
    (r : Fin 100000) (q : Fin 64) :
    layer1 (F := Ideal) a0 a3 (ix2 r q) = ∑ k : Fin 512, a0 (ix2 r k) * a3 (ix2 k q) := by
  unfold layer1
  exact Cert.LibPlainDot.dotGeneral_apply dot_S100000x512_S512x64_S100000x64_1_0_0_1_n_n rfl rfl rfl rfl dot1_lhs0 dot1_rhs1 none _ a0 a3 r q

/-- The second layer at (r, q): the sum over k of hidden(r, k) · weight(k, q). -/
theorem layer2_apply (x : (⟨S100000x64, .f32⟩ : BufTy).Contents (Elt Ideal)) (a4 : (⟨S64x512, .f32⟩ : BufTy).Contents (Elt Ideal))
    (r : Fin 100000) (q : Fin 512) :
    layer2 (F := Ideal) x a4 (ix2 r q) = ∑ k : Fin 64, x (ix2 r k) * a4 (ix2 k q) := by
  unfold layer2
  exact Cert.LibPlainDot.dotGeneral_apply dot_S100000x64_S64x512_S100000x512_1_0_0_1_n_n rfl rfl rfl rfl dot2_lhs0 dot2_rhs1 none _ x a4 r q

/-- Scaling the rows by a column: entry (r, q) times the column's entry (r, 0). -/
theorem scaleRows_apply (x : (⟨S100000x64, .f32⟩ : BufTy).Contents (Elt Ideal)) (col : (⟨S100000x1, .f32⟩ : BufTy).Contents (Elt Ideal))
    (r : Fin 100000) (q : Fin 64) :
    scaleRows (F := Ideal) x col (ix2 r q) = x (ix2 r q) * col (ix2 r (0 : Fin 1)) := by
  unfold scaleRows
  show x (ix2 r q) * (broadcastInDim S100000x64 ![0, 1] bcast_S100000x1_S100000x64_0_1 col) (ix2 r q) = _
  rw [Cert.LibUnitAxes.broadcastInDim_a1_ab_apply]

/-- The rectifier at an entry: the maximum with zero. -/
theorem relu0_apply (x : (⟨S100000x64, .f32⟩ : BufTy).Contents (Elt Ideal)) (r : Fin 100000) (q : Fin 64) :
    relu0 (F := Ideal) x (ix2 r q) = max (x (ix2 r q)) (Ideal.ofBits .f32 0x00000000#32) := by
  unfold relu0
  exact congrArg (max (x (ix2 r q)))
    ((Cert.LibUnitAxes.broadcastInDim_scalar_apply (constant (F := Ideal) S_ .f32 0x00000000#32) bcast_S_S100000x64 (ix2 r q)).trans rfl)

/-- The scaled and rectified aggregate at (r, q). -/
theorem relu0_scaleRows_apply (x : (⟨S100000x64, .f32⟩ : BufTy).Contents (Elt Ideal)) (col : (⟨S100000x1, .f32⟩ : BufTy).Contents (Elt Ideal))
    (r : Fin 100000) (q : Fin 64) :
    relu0 (F := Ideal) (scaleRows x col) (ix2 r q) = max (x (ix2 r q) * col (ix2 r (0 : Fin 1))) (Ideal.ofBits .f32 0x00000000#32) := by
  rw [relu0_apply, scaleRows_apply]

/-- The second layer of a row-scaled aggregate at (r, q). -/
theorem layer2_scaleRows_apply (x : (⟨S100000x64, .f32⟩ : BufTy).Contents (Elt Ideal)) (col : (⟨S100000x1, .f32⟩ : BufTy).Contents (Elt Ideal))
    (a4 : (⟨S64x512, .f32⟩ : BufTy).Contents (Elt Ideal)) (r : Fin 100000) (q : Fin 512) :
    layer2 (F := Ideal) (scaleRows x col) a4 (ix2 r q) = ∑ k : Fin 64, (x (ix2 r k) * col (ix2 r (0 : Fin 1))) * a4 (ix2 k q) := by
  rw [layer2_apply]
  refine Finset.sum_congr rfl fun k _ => ?_
  rw [scaleRows_apply]

end Cert.Stages

end
-- ==== Proof.Region0.lean ====
/-
  The first region: the blocked matmul writes, into rows 5000·t … 5000·t + 4999 of its result array, the product of the
  same rows of the features with the whole 512 × 64 weight.  Entry (r, q) of the result array therefore ends at the
  sum over k of features(r, k) · weight(k, q) — the first dense layer of the network, whatever array contents the
  region is entered with.
-/
import proofs.«128176_j25907242729573_2_alg».proof.Proof.Gen.KernelIdeal.Frame
import proofs.«128176_j25907242729573_2_alg».proof.Proof.Gen.ReferenceIdeal
import proofs.«128176_j25907242729573_2_alg».proof.Proof.Payloads
import proofs.«128176_j25907242729573_2_alg».proof.Proof.StagesAt
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the features' and the result's block move down the rows with the point, the weight's
    block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the result array ends holding: the first dense layer of the arrays the region is entered with. -/
abbrev G (c : Dev nD) : Buf (Elt Ideal) ((c : Thread nD τ).loc main_v18) :=
  Cert.Stages.layer1 (F := Ideal) (V c main_arg0) (V c main_arg3)

/-- The features' block at point `t` is rows 5000·t … of the features. -/
theorem left_apply (c : Dev nD) (t : Fin cfg0.N) (p : Fin 5000) (k : Fin 512) (r : Fin 100000) (hr : r.val = 5000 * t.val + p.val) :
    (iblk0 V c 0 t : S5000x512.Idx → Elt Ideal .f32) (ix2 p k) = (V c main_arg0 : S100000x512.Idx → Elt Ideal .f32) (ix2 r k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * p.val = r.val; rw [e0, hr]; omega
  | ⟨1, _⟩ => show win0_0.index t 1 * 512 + 1 * k.val = k.val; rw [e1]; omega

/-- The weight's block at every point is the whole weight. -/
theorem right_apply (c : Dev nD) (t : Fin cfg0.N) (k : Fin 512) (q : Fin 64) :
    (iblk0 V c 1 t : S512x64.Idx → Elt Ideal .f32) (ix2 k q) = (V c main_arg3 : S512x64.Idx → Elt Ideal .f32) (ix2 k q) := by
  obtain ⟨-, -, e2, e3, -⟩ := idx_facts t
  unfold iblk0
  rw [View.read_apply]
  show V c main_arg3 _ = V c main_arg3 _
  refine congrArg (V c main_arg3) ?_
  funext a
  apply Fin.ext
  match a with
  | ⟨0, _⟩ => show win0_1.index t 0 * 512 + 1 * k.val = k.val; rw [e2]; omega
  | ⟨1, _⟩ => show win0_1.index t 1 * 64 + 1 * q.val = q.val; rw [e3]; omega

/-- What point `t` writes back is block `t` of the first dense layer. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨-, -, -, -, e4, e5⟩ := idx_facts t
  funext j
  obtain ⟨p, q, rfl⟩ : ∃ (p : Fin 5000) (q : Fin 64), j = ix2 p q := ⟨j 0, j 1, eq_ix2 j⟩
  have hr : 5000 * t.val + p.val < 100000 := by
    have ht : t.val < 20 := lt_of_lt_of_eq t.isLt (show cfg0.N = 20 from N_0)
    have := p.isLt; omega
  have he : ((cfg0.win 2).blk t).view.emb (ix2 p q) = (ix2 (⟨5000 * t.val + p.val, hr⟩ : Fin 100000) q : S100000x64.Idx) := by
    funext a
    apply Fin.ext
    match a with
    | ⟨0, _⟩ => show win0_2.index t 0 * 5000 + 1 * p.val = 5000 * t.val + p.val; rw [e4]; omega
    | ⟨1, _⟩ => show win0_2.index t 1 * 64 + 1 * q.val = q.val; rw [e5]; omega
  rw [View.read_apply, he]
  refine (Cert.KernelIdeal.Pay.pay0_apply _ _ p q).trans ?_
  refine Eq.trans ?_ (Cert.Stages.layer1_apply _ _ _ q).symm
  refine Finset.sum_congr rfl fun k _ => ?_
  rw [left_apply V c t p k ⟨5000 * t.val + p.val, hr⟩ rfl, right_apply V c t k q]

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v18).slice (win0_2.rect t)).set ↔ _
  rw [View.set_slice_whole, Rect.mem_set_unit]
  exact Iff.rfl

/-- Every row block of the result array is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- The blocks cover the result array: row `r` is in the block of the point `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the first dense layer of the arrays the region is entered with. -/
theorem final (c : Dev nD) : (dat0 V c).arrAt 2 cfg0.N = G V c :=
  (dat0 V c).arrAt_eq_of_cover 2 (G V c) (fun t _ => flushed_eq V c t) cover

end Cert.KernelIdeal.Region0

end
-- ==== Proof.Region1.lean ====
/-
  The second region: the normalise-and-rectify kernel writes, into rows 10000·t … 10000·t + 9999 of its result array, the
  maximum with zero of the same rows of the aggregate, each row scaled by that row's entry of the norm column.  Entry
  (r, q) of the result array therefore ends at max (agg(r, q) · norm(r, 0), 0), whatever array contents the region is
  entered with.
-/
import proofs.«128176_j25907242729573_2_alg».proof.Proof.Gen.KernelIdeal.Frame
import proofs.«128176_j25907242729573_2_alg».proof.Proof.Gen.ReferenceIdeal
import proofs.«128176_j25907242729573_2_alg».proof.Proof.Payloads
import proofs.«128176_j25907242729573_2_alg».proof.Proof.StagesAt
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: all three blocks move down the rows with the point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What the result array ends holding: the aggregate scaled by the norm column and rectified. -/
abbrev G (c : Dev nD) : Buf (Elt Ideal) ((c : Thread nD τ).loc main_v39) :=
  Cert.Stages.relu0 (F := Ideal) (Cert.Stages.scaleRows (V c main_v38) (V c main_v17))

/-- The aggregate's block at point `t` is rows 10000·t … of the aggregate. -/
theorem agg_apply (c : Dev nD) (t : Fin cfg1.N) (p : Fin 10000) (q : Fin 64) (r : Fin 100000) (hr : r.val = 10000 * t.val + p.val) :
    (iblk1 V c 0 t : S10000x64.Idx → Elt Ideal .f32) (ix2 p q) = (V c main_v38 : S100000x64.Idx → Elt Ideal .f32) (ix2 r q) := by
  obtain ⟨e0, e1, -⟩ := idx_facts t
  unfold iblk1
  rw [View.read_apply]
  show V c main_v38 _ = V c main_v38 _
  refine congrArg (V c main_v38) ?_
  funext a
  apply Fin.ext
  match a with
  | ⟨0, _⟩ => show win1_0.index t 0 * 10000 + 1 * p.val = r.val; rw [e0, hr]; omega
  | ⟨1, _⟩ => show win1_0.index t 1 * 64 + 1 * q.val = q.val; rw [e1]; omega

/-- The norm column's block at point `t` is rows 10000·t … of the column. -/
theorem norm_apply (c : Dev nD) (t : Fin cfg1.N) (p : Fin 10000) (r : Fin 100000) (hr : r.val = 10000 * t.val + p.val) :
    (iblk1 V c 1 t : S10000x1.Idx → Elt Ideal .f32) (ix2 p (0 : Fin 1)) = (V c main_v17 : S100000x1.Idx → Elt Ideal .f32) (ix2 r (0 : Fin 1)) := by
  obtain ⟨-, -, e2, e3, -⟩ := idx_facts t
  unfold iblk1
  rw [View.read_apply]
  show V c main_v17 _ = V c main_v17 _
  refine congrArg (V c main_v17) ?_
  funext a
  apply Fin.ext
  match a with
  | ⟨0, _⟩ => show win1_1.index t 0 * 10000 + 1 * p.val = r.val; rw [e2, hr]; omega
  | ⟨1, _⟩ => show win1_1.index t 1 * 1 + 1 * 0 = 0; rw [e3]

/-- What point `t` writes back is block `t` of the scaled and rectified aggregate. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S10000x64) hz, View.ld_unit_zero (S := S10000x1) hz]
  obtain ⟨-, -, -, -, e4, e5⟩ := idx_facts t
  funext j
  obtain ⟨p, q, rfl⟩ : ∃ (p : Fin 10000) (q : Fin 64), j = ix2 p q := ⟨j 0, j 1, eq_ix2 j⟩
  have hr : 10000 * t.val + p.val < 100000 := by
    have ht : t.val < 10 := lt_of_lt_of_eq t.isLt (show cfg1.N = 10 from N_1)
    have := p.isLt; omega
  have he : ((cfg1.win 2).blk t).view.emb (ix2 p q) = (ix2 (⟨10000 * t.val + p.val, hr⟩ : Fin 100000) q : S100000x64.Idx) := by
    funext a
    apply Fin.ext
    match a with
    | ⟨0, _⟩ => show win1_2.index t 0 * 10000 + 1 * p.val = 10000 * t.val + p.val; rw [e4]; omega
    | ⟨1, _⟩ => show win1_2.index t 1 * 64 + 1 * q.val = q.val; rw [e5]; omega
  rw [View.read_apply, he]
  refine (Cert.KernelIdeal.Pay.pay1_apply _ _ p q).trans ?_
  refine Eq.trans ?_ (Cert.Stages.relu0_scaleRows_apply _ _ _ q).symm
  rw [agg_apply V c t p q ⟨10000 * t.val + p.val, hr⟩ rfl, norm_apply V c t p ⟨10000 * t.val + p.val, hr⟩ rfl]

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v39).slice (win1_2.rect t)).set ↔ _
  rw [View.set_slice_whole, Rect.mem_set_unit]
  exact Iff.rfl

/-- Every row block of the result array is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The blocks cover the result array: row `r` is in the block of the point `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the region: the scaled and rectified aggregate of the arrays the region is entered with. -/
theorem final (c : Dev nD) : (dat1 V c).arrAt 2 cfg1.N = G V c :=
  (dat1 V c).arrAt_eq_of_cover 2 (G V c) (fun t _ => flushed_eq V c t) cover

end Cert.KernelIdeal.Region1

end
-- ==== Proof.Region2.lean ====
/-
  The third region: the normalise-and-matmul kernel writes, into rows 5000·t … 5000·t + 4999 of its result array, the
  product of the same rows of the aggregate — each row scaled by that row's entry of the norm column — with the whole
  64 × 512 weight.  Entry (r, q) of the result array therefore ends at the sum over k of
  (agg(r, k) · norm(r, 0)) · weight(k, q): the second dense layer of the row-scaled aggregate, whatever array contents
  the region is entered with.
-/
import proofs.«128176_j25907242729573_2_alg».proof.Proof.Gen.KernelIdeal.Frame
import proofs.«128176_j25907242729573_2_alg».proof.Proof.Gen.ReferenceIdeal
import proofs.«128176_j25907242729573_2_alg».proof.Proof.Payloads
import proofs.«128176_j25907242729573_2_alg».proof.Proof.StagesAt
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the aggregate's, the norm column's and the result's block move down the rows with
    the point, the weight's block stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the result array ends holding: the second dense layer of the row-scaled aggregate. -/
abbrev G (c : Dev nD) : Buf (Elt Ideal) ((c : Thread nD τ).loc main_v60) :=
  Cert.Stages.layer2 (F := Ideal) (Cert.Stages.scaleRows (V c main_v59) (V c main_v17)) (V c main_arg4)

/-- The aggregate's block at point `t` is rows 5000·t … of the aggregate. -/
theorem agg_apply (c : Dev nD) (t : Fin cfg2.N) (p : Fin 5000) (k : Fin 64) (r : Fin 100000) (hr : r.val = 5000 * t.val + p.val) :
    (iblk2 V c 0 t : S5000x64.Idx → Elt Ideal .f32) (ix2 p k) = (V c main_v59 : S100000x64.Idx → Elt Ideal .f32) (ix2 r k) := by
  obtain ⟨e0, e1, -⟩ := idx_facts t
  unfold iblk2
  rw [View.read_apply]
  show V c main_v59 _ = V c main_v59 _
  refine congrArg (V c main_v59) ?_
  funext a
  apply Fin.ext
  match a with
  | ⟨0, _⟩ => show win2_0.index t 0 * 5000 + 1 * p.val = r.val; rw [e0, hr]; omega
  | ⟨1, _⟩ => show win2_0.index t 1 * 64 + 1 * k.val = k.val; rw [e1]; omega

/-- The norm column's block at point `t` is rows 5000·t … of the column. -/
theorem norm_apply (c : Dev nD) (t : Fin cfg2.N) (p : Fin 5000) (r : Fin 100000) (hr : r.val = 5000 * t.val + p.val) :
    (iblk2 V c 1 t : S5000x1.Idx → Elt Ideal .f32) (ix2 p (0 : Fin 1)) = (V c main_v17 : S100000x1.Idx → Elt Ideal .f32) (ix2 r (0 : Fin 1)) := by
  obtain ⟨-, -, e2, e3, -⟩ := idx_facts t
  unfold iblk2
  rw [View.read_apply]
  show V c main_v17 _ = V c main_v17 _
  refine congrArg (V c main_v17) ?_
  funext a
  apply Fin.ext
  match a with
  | ⟨0, _⟩ => show win2_1.index t 0 * 5000 + 1 * p.val = r.val; rw [e2, hr]; omega
  | ⟨1, _⟩ => show win2_1.index t 1 * 1 + 1 * 0 = 0; rw [e3]

/-- The weight's block at every point is the whole weight. -/
theorem weight_apply (c : Dev nD) (t : Fin cfg2.N) (k : Fin 64) (q : Fin 512) :
    (iblk2 V c 2 t : S64x512.Idx → Elt Ideal .f32) (ix2 k q) = (V c main_arg4 : S64x512.Idx → Elt Ideal .f32) (ix2 k q) := by
  obtain ⟨-, -, -, -, e4, e5, -⟩ := idx_facts t
  unfold iblk2
  rw [View.read_apply]
  show V c main_arg4 _ = V c main_arg4 _
  refine congrArg (V c main_arg4) ?_
  funext a
  apply Fin.ext
  match a with
  | ⟨0, _⟩ => show win2_2.index t 0 * 64 + 1 * k.val = k.val; rw [e4]; omega
  | ⟨1, _⟩ => show win2_2.index t 1 * 512 + 1 * q.val = q.val; rw [e5]; omega

/-- What point `t` writes back is block `t` of the second dense layer of the row-scaled aggregate. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S64x512) hz]
  obtain ⟨-, -, -, -, -, -, e6, e7⟩ := idx_facts t
  funext j
  obtain ⟨p, q, rfl⟩ : ∃ (p : Fin 5000) (q : Fin 512), j = ix2 p q := ⟨j 0, j 1, eq_ix2 j⟩
  have hr : 5000 * t.val + p.val < 100000 := by
    have ht : t.val < 20 := lt_of_lt_of_eq t.isLt (show cfg2.N = 20 from N_2)
    have := p.isLt; omega
  have he : ((cfg2.win 3).blk t).view.emb (ix2 p q) = (ix2 (⟨5000 * t.val + p.val, hr⟩ : Fin 100000) q : S100000x512.Idx) := by
    funext a
    apply Fin.ext
    match a with
    | ⟨0, _⟩ => show win2_3.index t 0 * 5000 + 1 * p.val = 5000 * t.val + p.val; rw [e6]; omega
    | ⟨1, _⟩ => show win2_3.index t 1 * 512 + 1 * q.val = q.val; rw [e7]; omega
  rw [View.read_apply, he]
  refine (Cert.KernelIdeal.Pay.pay2_apply _ _ _ p q).trans ?_
  refine Eq.trans ?_ (Cert.Stages.layer2_scaleRows_apply _ _ _ _ q).symm
  refine Finset.sum_congr rfl fun k _ => ?_
  rw [agg_apply V c t p k ⟨5000 * t.val + p.val, hr⟩ rfl, norm_apply V c t p ⟨5000 * t.val + p.val, hr⟩ rfl, weight_apply V c t k q]

/-- An index of the result array is in point `t`'s block iff each coordinate is in the block's range on its axis. -/
theorem mem_blk (t : Fin cfg2.N) (i : S100000x512.Idx) :
    i ∈ ((cfg2.win 3).blk t).view.set ↔ ∀ a : Fin 2, win2_3.index t a * S5000x512.size a ≤ (i a).val ∧ (i a).val < win2_3.index t a * S5000x512.size a + S5000x512.size a := by
  show i ∈ ((View.whole main_v60).slice (win2_3.rect t)).set ↔ _
  rw [View.set_slice_whole, Rect.mem_set_unit]
  exact Iff.rfl

/-- Every row block of the result array is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

/-- The blocks cover the result array: row `r` is in the block of the point `r / 5000`. -/
theorem cover (i : S100000x512.Idx) : ∃ t : Fin cfg2.N, (cfg2.win 3).flush t = true ∧ i ∈ ((cfg2.win 3).blk t).view.set := by
  have hi0 : (i 0).val < 100000 := (i 0).isLt
  have hi1 : (i 1).val < 512 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 512 ≤ (i 1).val ∧ (i 1).val < win2_3.index t (1 : Fin 2) * 512 + 512; omega

/-- The result array after the region: the second dense layer of the row-scaled aggregate the region is entered with. -/
theorem final (c : Dev nD) : (dat2 V c).arrAt 3 cfg2.N = G V c :=
  (dat2 V c).arrAt_eq_of_cover 3 (G V c) (fun t _ => flushed_eq V c t) cover

end Cert.KernelIdeal.Region2

end
-- ==== Proof.Value.lean ====
/-
  The idealized kernel's result as a function of its arguments.  Walking the boundaries of @main in order: the first
  region leaves the first dense layer of the features; the next stretch aggregates it along the edges; the second
  region scales it by the destination norm and rectifies it — the hidden features; the next stretch aggregates those;
  the third region scales the aggregate by the destination norm and applies the second dense layer.  Every other
  buffer a region or a stretch meets is carried through unchanged, so the norms and the arguments each stage reads are
  the ones computed from the launch memory.  The result buffer therefore ends at the network's output, `Stages.result`
  of the five argument arrays.
-/
import proofs.«128176_j25907242729573_2_alg».proof.Proof.FoldHost
import proofs.«128176_j25907242729573_2_alg».proof.Proof.Region0
import proofs.«128176_j25907242729573_2_alg».proof.Proof.Region1
import proofs.«128176_j25907242729573_2_alg».proof.Proof.Region2

set_option maxRecDepth 16384

noncomputable section

namespace Cert.KernelIdeal.Fold

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## After the first region -/

/-- The first region's result array: the first dense layer of the features. -/
theorem W6_v18 : W6 m ρ c (Proc.devRef .tc main_v18)
    = Cert.Stages.layer1 (m ((c : Thread nD τ).loc main_arg0)) (m ((c : Thread nD τ).loc main_arg3)) := by
  refine (W6_arr m ρ c 2).trans ((Cert.KernelIdeal.Region0.final (V5 m ρ) c).trans ?_)
  show Cert.Stages.layer1 (W5 m ρ c (Proc.devRef .tc main_arg0)) (W5 m ρ c (Proc.devRef .tc main_arg3)) = _
  rw [W5_arg0, W5_arg3]

/-! ## At the second region's entry -/

/-- The aggregate the second region reads: the first layer aggregated along the edges with the source norm. -/
theorem W7_v38_eq : W7 m ρ c (Proc.devRef .tc main_v38)
    = Cert.Stages.aggregate (Cert.Stages.layer1 (m ((c : Thread nD τ).loc main_arg0)) (m ((c : Thread nD τ).loc main_arg3)))
        (m ((c : Thread nD τ).loc main_arg1)) (m ((c : Thread nD τ).loc main_arg2))
        (Cert.Stages.degNorm (m ((c : Thread nD τ).loc main_arg1))) := by
  rw [W7_v38, W6_v18, W6_of_ne m ρ c main_arg1 (by decide), W6_of_ne m ρ c main_arg2 (by decide),
    W6_of_ne m ρ c main_v11 (by decide), W5_arg1, W5_arg2, W5_v11]

/-- The norm column the second region reads: the destination norm. -/
theorem W7_v17_eq : W7 m ρ c (Proc.devRef .tc main_v17)
    = Cert.Stages.ncol (Cert.Stages.degNorm (m ((c : Thread nD τ).loc main_arg2))) := by
  rw [W7_v17, W6_of_ne m ρ c main_v17 (by decide), W5_v17]

/-! ## After the second region -/

/-- The second region's result array: the hidden features. -/
theorem W8_v39 : W8 m ρ c (Proc.devRef .tc main_v39)
    = Cert.Stages.hidden (m ((c : Thread nD τ).loc main_arg0)) (m ((c : Thread nD τ).loc main_arg1))
        (m ((c : Thread nD τ).loc main_arg2)) (m ((c : Thread nD τ).loc main_arg3)) := by
  refine (W8_arr m ρ c 2).trans ((Cert.KernelIdeal.Region1.final (V7 m ρ) c).trans ?_)
  show Cert.Stages.relu0 (Cert.Stages.scaleRows (W7 m ρ c (Proc.devRef .tc main_v38)) (W7 m ρ c (Proc.devRef .tc main_v17))) = _
  unfold Cert.Stages.hidden
  rw [W7_v38_eq, W7_v17_eq]

/-- The norm column is an input of the second region: it comes out as it went in. -/
theorem W8_v17 : W8 m ρ c (Proc.devRef .tc main_v17) = W7 m ρ c (Proc.devRef .tc main_v17) :=
  (W8_arr m ρ c 1).trans (((dat1 (V7 m ρ) c).arrAt_in 1 rfl _).trans (A_eq1 (V7 m ρ) c 1))

/-! ## At the third region's entry -/

/-- The aggregate the third region reads: the hidden features aggregated along the edges with the source norm. -/
theorem W9_v59_eq : W9 m ρ c (Proc.devRef .tc main_v59)
    = Cert.Stages.aggregate (Cert.Stages.hidden (m ((c : Thread nD τ).loc main_arg0)) (m ((c : Thread nD τ).loc main_arg1))
          (m ((c : Thread nD τ).loc main_arg2)) (m ((c : Thread nD τ).loc main_arg3)))
        (m ((c : Thread nD τ).loc main_arg1)) (m ((c : Thread nD τ).loc main_arg2))
        (Cert.Stages.degNorm (m ((c : Thread nD τ).loc main_arg1))) := by
  rw [W9_v59, W8_v39,
    W8_of_ne m ρ c main_arg1 (by decide), W7_arg1, W6_of_ne m ρ c main_arg1 (by decide), W5_arg1,
    W8_of_ne m ρ c main_arg2 (by decide), W7_arg2, W6_of_ne m ρ c main_arg2 (by decide), W5_arg2,
    W8_of_ne m ρ c main_v11 (by decide), W7_v11, W6_of_ne m ρ c main_v11 (by decide), W5_v11]

/-- The norm column the third region reads: the destination norm. -/
theorem W9_v17_eq : W9 m ρ c (Proc.devRef .tc main_v17)
    = Cert.Stages.ncol (Cert.Stages.degNorm (m ((c : Thread nD τ).loc main_arg2))) := by
  rw [W9_v17, W8_v17, W7_v17_eq]

/-- The second weight the third region reads: the argument. -/
theorem W9_arg4_eq : W9 m ρ c (Proc.devRef .tc main_arg4) = m ((c : Thread nD τ).loc main_arg4) := by
  rw [W9_arg4, W8_of_ne m ρ c main_arg4 (by decide), W7_arg4, W6_of_ne m ρ c main_arg4 (by decide), W5_arg4]

/-! ## After the third region: the result -/

/-- The result buffer after the run: the network's output of the five argument arrays. -/
theorem W10_v60 : W10 m ρ c (Proc.devRef .tc main_v60)
    = Cert.Stages.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (W10_arr m ρ c 3).trans ((Cert.KernelIdeal.Region2.final (V9 m ρ) c).trans ?_)
  show Cert.Stages.layer2 (Cert.Stages.scaleRows (W9 m ρ c (Proc.devRef .tc main_v59)) (W9 m ρ c (Proc.devRef .tc main_v17)))
    (W9 m ρ c (Proc.devRef .tc main_arg4)) = _
  unfold Cert.Stages.result
  rw [W9_v59_eq, W9_v17_eq, W9_arg4_eq]

end Cert.KernelIdeal.Fold

end
-- ==== Proof.lean ====
/-
  A two-layer graph convolution with symmetric degree normalisation: the Pallas program against its jnp reference, at
  the ideal instance.

  Both programs compute, from features X, edge lists src and dst, and weights W1 (512 × 64) and W2 (64 × 512),
      H = relu (n_dst ⊙ A (n_src, X · W1)),    Y = (n_dst ⊙ A (n_src, H)) · W2,
  where n_src and n_dst are the degree norms d ^ (−1/2) (d the degree, or one at a node without edges), ⊙ scales row r
  by the norm of node r, and A gathers the source rows, weighs them by the source norm and scatter-adds them into the
  destination rows.  The host operations — the norms, the gathers, the scatter-adds — are the same in both programs, with
  the same dimension numbers.  The kernel computes the three dense pieces in three pallas regions, by row blocks: X · W1
  (its operands narrowed to bf16, which is the identity on extended reals), relu of the row-scaled aggregate, and the
  row-scaled aggregate times W2; the reference computes them by dot_general, multiply and maximum on the whole arrays.
  Entry by entry each region's result array is the reference's operation of the arrays the region is entered with: a
  matmul into a zero accumulator and a dot_general are both the plain sum over the contracted index, and a row block of
  a row-wise operation is the operation on the rows.  No law of the extended reals beyond re-indexing a finite sum is
  used, so the precondition (finite inputs) is never opened.

  The three frames: the kernel's two are the generated frame certificates; the reference's is its run with the result
  dropped.  The idealization rewrote nothing, so `preserves` is `True`.
-/
import proofs.«128176_j25907242729573_2_alg».proof.Defs
import proofs.«128176_j25907242729573_2_alg».proof.Proof.Gen.Kernel
import proofs.«128176_j25907242729573_2_alg».proof.Proof.Gen.Kernel.Frame
import proofs.«128176_j25907242729573_2_alg».proof.Proof.Gen.KernelIdeal
import proofs.«128176_j25907242729573_2_alg».proof.Proof.Gen.KernelIdeal.Frame
import proofs.«128176_j25907242729573_2_alg».proof.Proof.Gen.ReferenceIdeal
import proofs.«128176_j25907242729573_2_alg».proof.Proof.Gen.Pre_finite_inputs
import proofs.«128176_j25907242729573_2_alg».proof.Proof.KernelRun
import proofs.«128176_j25907242729573_2_alg».proof.Proof.Value
import proofs.«128176_j25907242729573_2_alg».proof.Proof.RefRunPatched
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference's composed term is the network's output of its five argument arrays: the same operations, grouped
    into stages. -/
theorem reference_result (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v65 (F := Ideal) m' c
      = Cert.Stages.result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  unfold Cert.ReferenceIdeal.ValueP.res_main_v65 Cert.Stages.result Cert.Stages.hidden Cert.Stages.layer2 Cert.Stages.layer1
    Cert.Stages.scaleRows Cert.Stages.relu0 Cert.Stages.ncol Cert.Stages.aggregate Cert.Stages.idxCol Cert.Stages.degNorm Cert.Stages.deg
  rfl

/-- Run from memories that agree on the arguments, the idealized kernel and the idealized reference both end with the
    network's output of those arguments in their result buffers. -/
theorem algebraic : Cert.algebraic_KernelIdeal_ReferenceIdeal := by
  intro m ρ m' ρ' _ hagree
  refine ⟨fun c => Cert.Stages.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Fold.W10_v60 m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.ValueP.run (F := Ideal) m' ρ')
    rw [reference_result, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
